-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S32x131136 : Shape := ⟨2, ![32, 131136]⟩
abbrev S64x1024 : Shape := ⟨2, ![64, 1024]⟩
abbrev S64 : Shape := ⟨1, ![64]⟩
abbrev S1x1024 : Shape := ⟨2, ![1, 1024]⟩
abbrev S1 : Shape := ⟨1, ![1]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S32x131136 : S_.BroadcastsInDim S32x131136 (![] : Fin 0 → Fin S32x131136.rank)
  reducesTo_S32x131136_S_d0_1 : S32x131136.ReducesTo [0, 1] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x1024 .f32) (main_arg5 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S512x1024 .f32) (main_arg1 : FVec F S32x131136 .f32) (main_arg2 : FVec F S64x1024 .f32) (main_arg3 : FVec F S64 .f32) (main_arg4 : FVec F S1x1024 .f32) (main_arg5 : FVec F S1 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S32x131136 .f32 := Host.absf main_arg1
  let main_cst_0 : FVec F S_ .f32 := constant S_ .f32 0x7F800000#32
  let main_v5 : FVec F S32x131136 .f32 := broadcastInDim S32x131136 ![] bcast_S_S32x131136 main_cst_0
  let main_v6 : IVec S32x131136 1 := cmpf .olt main_v4 main_v5
  let main_c_1 : IVec S_ 1 := constantI S_ 1 1#1
  let main_v7 : IVec S_ 1 := (fun x v => Host.reduce IntOp.andi x v reducesTo_S32x131136_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S512x1024 : Shape := ⟨2, ![512, 1024]⟩
abbrev S32x131136 : Shape := ⟨2, ![32, 131136]⟩
abbrev S64x1024 : Shape := ⟨2, ![64, 1024]⟩
abbrev S64 : Shape := ⟨1, ![64]⟩
abbrev S1x1024 : Shape := ⟨2, ![1, 1024]⟩
abbrev S1 : Shape := ⟨1, ![1]⟩
abbrev S32x64 : Shape := ⟨2, ![32, 64]⟩
abbrev S1024x64 : Shape := ⟨2, ![1024, 64]⟩
abbrev S512x64 : Shape := ⟨2, ![512, 64]⟩
abbrev S1x64 : Shape := ⟨2, ![1, 64]⟩
abbrev S1024x1 : Shape := ⟨2, ![1024, 1]⟩
abbrev S512x1 : Shape := ⟨2, ![512, 1]⟩
abbrev S1x1 : Shape := ⟨2, ![1, 1]⟩
abbrev S_ : Shape := ⟨0, ![]⟩
abbrev S32 : Shape := ⟨1, ![32]⟩
abbrev S512 : Shape := ⟨1, ![512]⟩
abbrev S64x32 : Shape := ⟨2, ![64, 32]⟩
abbrev S512x32 : Shape := ⟨2, ![512, 32]⟩
abbrev S1x32 : Shape := ⟨2, ![1, 32]⟩
abbrev S512x131072 : Shape := ⟨2, ![512, 131072]⟩
abbrev S512x4096 : Shape := ⟨2, ![512, 4096]⟩
abbrev S2x32x4096 : Shape := ⟨3, ![2, 32, 4096]⟩
abbrev S2 : Shape := ⟨1, ![2]⟩
abbrev S1x32x4096 : Shape := ⟨3, ![1, 32, 4096]⟩
abbrev S32x4096 : Shape := ⟨2, ![32, 4096]⟩
abbrev S512x1x131072 : Shape := ⟨3, ![512, 1, 131072]⟩

abbrev nBuf : Space → Nat
  | .hbm => 80
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S32x131136, .f32⟩
  | .hbm, ⟨2, _⟩ => ⟨S64x1024, .f32⟩
  | .hbm, ⟨3, _⟩ => ⟨S64, .f32⟩
  | .hbm, ⟨4, _⟩ => ⟨S1x1024, .f32⟩
  | .hbm, ⟨5, _⟩ => ⟨S1, .f32⟩
  | .hbm, ⟨6, _⟩ => ⟨S32x64, .f32⟩
  | .hbm, ⟨7, _⟩ => ⟨S32x64, .f32⟩
  | .hbm, ⟨8, _⟩ => ⟨S1024x64, .f32⟩
  | .hbm, ⟨9, _⟩ => ⟨S512x64, .f32⟩
  | .hbm, ⟨10, _⟩ => ⟨S1x64, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S1024x1, .f32⟩
  | .hbm, ⟨15, _⟩ => ⟨S512x1, .f32⟩
  | .hbm, ⟨16, _⟩ => ⟨S1x1, .f32⟩
  | .hbm, ⟨17, _⟩ => ⟨S512x1, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1, .i1⟩
  | .hbm, ⟨25, _⟩ => ⟨S512x1, .f32⟩
  | .hbm, ⟨26, _⟩ => ⟨S512x1, .f32⟩
  | .hbm, ⟨27, _⟩ => ⟨S512x1, .f32⟩
  | .hbm, ⟨28, _⟩ => ⟨S512x1, .f32⟩
  | .hbm, ⟨29, _⟩ => ⟨S512x1, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S32x64, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S512x64, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S64x32, .f32⟩
  | .hbm, ⟨48, _⟩ => ⟨S512x32, .f32⟩
  | .hbm, ⟨49, _⟩ => ⟨S512x1, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S1x32, .f32⟩
  | .hbm, ⟨54, _⟩ => ⟨S512x32, .f32⟩
  | .hbm, ⟨55, _⟩ => ⟨S512x32, .f32⟩
  | .hbm, ⟨56, _⟩ => ⟨S512x32, .f32⟩
  | .hbm, ⟨57, _⟩ => ⟨S_, .f32⟩
  | .hbm, ⟨58, _⟩ => ⟨S512x32, .f32⟩
  | .hbm, ⟨59, _⟩ => ⟨S512x32, .f32⟩
  | .hbm, ⟨60, _⟩ => ⟨S512x32, .f32⟩
  | .hbm, ⟨61, _⟩ => ⟨S512x32, .f32⟩
  | .hbm, ⟨62, _⟩ => ⟨S512x32, .f32⟩
  | .hbm, ⟨63, _⟩ => ⟨S_, .f32⟩
  | .hbm, ⟨64, _⟩ => ⟨S512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S512x1, .f32⟩
  | .hbm, ⟨69, _⟩ => ⟨S512x32, .f32⟩
  | .hbm, ⟨70, _⟩ => ⟨S512x32, .f32⟩
  | .hbm, ⟨71, _⟩ => ⟨S512x32, .f32⟩
  | .hbm, ⟨72, _⟩ => ⟨S_, .f32⟩
  | .hbm, ⟨73, _⟩ => ⟨S512, .f32⟩
  | .hbm, ⟨74, _⟩ => ⟨S512x1, .f32⟩
  | .hbm, ⟨75, _⟩ => ⟨S512x32, .f32⟩
  | .hbm, ⟨76, _⟩ => ⟨S512x32, .f32⟩
  | .hbm, ⟨77, _⟩ => ⟨S512x32, .bf16⟩
  | .hbm, ⟨78, _⟩ => ⟨S512x131072, .f32⟩
  | .hbm, ⟨79, _⟩ => ⟨S512x1x131072, .f32⟩
  | .local _ .vmem, ⟨0, _⟩ => ⟨S512x32, .bf16⟩
  | .local _ .vmem, ⟨1, _⟩ => ⟨S512x4096, .f32⟩
  | .local _ .vmem, ⟨2, _⟩ => ⟨S512x4096, .f32⟩
  | .local _ .vmem, ⟨3, _⟩ => ⟨S2x32x4096, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v13 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_call2_v0 : Ref sig .tc := ⟨.hbm, 40, rfl⟩
abbrev main_call2_cst : Ref sig .tc := ⟨.hbm, 41, rfl⟩
abbrev main_call2_v1 : Ref sig .tc := ⟨.hbm, 42, rfl⟩
abbrev main_v17 : Ref sig .tc := ⟨.hbm, 43, rfl⟩
abbrev main_cst_0 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_1 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_2 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_3 : Ref sig .tc := ⟨.hbm, 63, rfl⟩
abbrev main_v34 : Ref sig .tc := ⟨.hbm, 64, rfl⟩
abbrev main_cst_4 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

def k0_off1 (i : grid0.Coords) : Fin 1 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off2 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_6 : BitVec 32 := 0#32
  let c0_i32_7 : BitVec 32 := 0#32
  ![v12.toNat, 0, 0]
def k0_cond2 (i : grid0.Coords) : BitVec 1 :=
  let arg0 : BitVec 32 := BitVec.ofNat 32 (i 0).val
  let c1_i32_10 : BitVec 32 := 1#32
  let v19 : BitVec 32 := Scalar.addi arg0 c1_i32_10
  let c32_i32 : BitVec 32 := 32#32
  let v20 : BitVec 1 := Scalar.cmpi .slt v19 c32_i32
  let v21 : BitVec 32 := Scalar.extui v20
  let c0_i32_11 : BitVec 32 := 0#32
  let v22 : BitVec 1 := Scalar.cmpi .ne v21 c0_i32_11
  v22

def k0_off3 (i : grid0.Coords) : Fin 1 → Nat :=
  let c1_i32_5 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13 : BitVec 32 := Scalar.subi c1_i32_5 v12
  ![v13.toNat]
def k0_off4 (i : grid0.Coords) : Fin 3 → Nat :=
  let c1_i32_5 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13 : BitVec 32 := Scalar.subi c1_i32_5 v12
  let c0_i32_18 : BitVec 32 := 0#32
  let c0_i32_19 : BitVec 32 := 0#32
  ![v13.toNat, 0, 0]
def k0_off5 (i : grid0.Coords) : Fin 2 → Nat :=
  let c0_i32_20 : BitVec 32 := 0#32
  let c64_i32 : BitVec 32 := 64#32
  let arg0 : BitVec 32 := BitVec.ofNat 32 (i 0).val
  let c1_i32_17 : BitVec 32 := 1#32
  let v31 : BitVec 32 := Scalar.addi arg0 c1_i32_17
  let c4096_i32 : BitVec 32 := 4096#32
  let v32 : BitVec 32 := Scalar.muli v31 c4096_i32
  let v33 : BitVec 32 := Scalar.addi c64_i32 v32
  ![0, v33.toNat]
def k0_off6 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : Index := Scalar.indexCast v12
  let c0_13 : Index := 0#32
  let c0_14 : Index := 0#32
  ![v25.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S32x131136_S32x64_0_0 : S32x131136.Slices ![0, 0] S32x64
  transposes_S64x1024_S1024x64_1_0 : S64x1024.Transposes [1, 0] S1024x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  transposes_S1x1024_S1024x1_1_0 : S1x1024.Transposes [1, 0] S1024x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  reducesTo_S32x64_S32_d1 : S32x64.ReducesTo [1] S32
  h_S_ : 0 < S_.numel
  bcast_S_S32 : S_.BroadcastsInDim S32 (![] : Fin 0 → Fin S32.rank)
  reducesTo_S512x64_S512_d1 : S512x64.ReducesTo [1] S512
  bcast_S_S512 : S_.BroadcastsInDim S512 (![] : Fin 0 → Fin S512.rank)
  transposes_S32x64_S64x32_1_0 : S32x64.Transposes [1, 0] S64x32
  bcast_S512_S512x1_0 : S512.BroadcastsInDim S512x1 (![0] : Fin 1 → Fin S512x1.rank)
  bcast_S32_S1x32_1 : S32.BroadcastsInDim S1x32 (![1] : Fin 1 → Fin S1x32.rank)
  bcast_S512x1_S512x32_0_1 : S512x1.BroadcastsInDim S512x32 (![0, 1] : Fin 2 → Fin S512x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  reducesTo_S512x32_S512_d1 : S512x32.ReducesTo [1] S512
  bitsLt_bf16_f32 : FTy.bits .bf16 < FTy.bits .f32
  inb_S2_S1_0 : ∀ a, (![0] : Fin 1 → Nat) a + S1.size a ≤ S2.size a
  squeezes_S1_S_ : S1.Squeezes S_
  inb_S2x32x4096_S1x32x4096_0_0_0 : ∀ a, (![0, 0, 0] : Fin 3 → Nat) a + S1x32x4096.size a ≤ S2x32x4096.size a
  squeezes_S1x32x4096_S32x4096 : S1x32x4096.Squeezes S32x4096
  inb_S32x131136_S32x4096_0_64 : ∀ a, (![0, 64] : Fin 2 → Nat) a + S32x4096.size a ≤ S32x131136.size a
  inb_S32x131136_S32x4096_0_0 : ∀ a, (![0, 0] : Fin 2 → Nat) a + S32x4096.size a ≤ S32x131136.size a
  inb_S512x32_S512x32_0_0 : ∀ a, (![0, 0] : Fin 2 → Nat) a + S512x32.size a ≤ S512x32.size a
  h_S512x32 : 0 < S512x32.numel
  shapeCasts_S512x32_S512x32 : S512x32.ShapeCasts S512x32
  h_S1x32x4096 : 0 < S1x32x4096.numel
  shapeCasts_S1x32x4096_S32x4096 : S1x32x4096.ShapeCasts S32x4096
  inb_S512x4096_S512x4096_0_0 : ∀ a, (![0, 0] : Fin 2 → Nat) a + S512x4096.size a ≤ S512x4096.size a
  h_S512x4096 : 0 < S512x4096.numel
  bcast_S512x131072_S512x1x131072_0_2 : S512x131072.BroadcastsInDim S512x1x131072 (![0, 2] : Fin 2 → Fin S512x1x131072.rank)
  dot_S512x1024_S1024x64_S512x64_1_0_0_1_n_n_wf : DotDims.WF S512x1024 S1024x64 S512x64 [1] [0] [0] [1] [] []
  dot_S512x1024_S1024x1_S512x1_1_0_0_1_n_n_wf : DotDims.WF S512x1024 S1024x1 S512x1 [1] [0] [0] [1] [] []
  dot_S512x64_S64x32_S512x32_1_0_0_1_n_n_wf : DotDims.WF S512x64 S64x32 S512x32 [1] [0] [0] [1] [] []
  dot_S512x32_S32x4096_S512x4096_1_0_0_1_n_n_wf : DotDims.WF S512x32 S32x4096 S512x4096 [1] [0] [0] [1] [] []
  hcc0_scratch1 : 3 + S2.numel ≤ 5
  hrank0 : 0 < grid0.rank
  k0_off1_inb : ∀ i : grid0.Coords, ∀ a, (k0_off1 i) a + S1.size a ≤ S2.size a
  k0_off2_inb : ∀ i : grid0.Coords, ∀ a, (k0_off2 i) a + S1x32x4096.size a ≤ S2x32x4096.size a
  k0_off3_inb : ∀ i : grid0.Coords, ∀ (k0_h2 : k0_cond2 i = 1#1), ∀ a, (k0_off3 i) a + S1.size a ≤ S2.size a
  k0_off4_inb : ∀ i : grid0.Coords, ∀ (k0_h2 : k0_cond2 i = 1#1), ∀ a, (k0_off4 i) a + S1x32x4096.size a ≤ S2x32x4096.size a
  k0_off5_inb : ∀ i : grid0.Coords, ∀ (k0_h2 : k0_cond2 i = 1#1), ∀ a, (k0_off5 i) a + S32x4096.size a ≤ S32x131136.size a
  k0_off6_inb : ∀ i : grid0.Coords, ∀ a, (k0_off6 i) a + S1x32x4096.size a ≤ S2x32x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S512x32.size a
  hwx0_0 : ∀ i : grid0.Coords, EltTy.bits .bf16 = 32 ∨ (Rect.block (s := S512x32) S512x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S512x4096.size a ≤ S512x131072.size a
  hwx0_1 : ∀ i : grid0.Coords, EltTy.bits .f32 = 32 ∨ (Rect.block (s := S512x131072) S512x4096.size (cc0_transform_2 i) (hinb0_1 i)).WholeWords (EltTy.packing .f32)

variable [Facts₀]

abbrev cc0_scratch1 : DmaSems sig S2 := SemArray.consecutive 3 S2 hcc0_scratch1
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf

abbrev win0_0 : Pipeline.Window sig grid0 :=
  Pipeline.Window.ofSpec (Memref.whole main_v45) S512x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v46) S512x4096.size cc0_transform_2 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x1024 : Shape := ⟨2, ![512, 1024]⟩
abbrev S32x131136 : Shape := ⟨2, ![32, 131136]⟩
abbrev S64x1024 : Shape := ⟨2, ![64, 1024]⟩
abbrev S64 : Shape := ⟨1, ![64]⟩
abbrev S1x1024 : Shape := ⟨2, ![1, 1024]⟩
abbrev S1 : Shape := ⟨1, ![1]⟩
abbrev S32x64 : Shape := ⟨2, ![32, 64]⟩
abbrev S32x131072 : Shape := ⟨2, ![32, 131072]⟩
abbrev S1024x64 : Shape := ⟨2, ![1024, 64]⟩
abbrev S512x64 : Shape := ⟨2, ![512, 64]⟩
abbrev S1x64 : Shape := ⟨2, ![1, 64]⟩
abbrev S1024x1 : Shape := ⟨2, ![1024, 1]⟩
abbrev S512x1 : Shape := ⟨2, ![512, 1]⟩
abbrev S1x1 : Shape := ⟨2, ![1, 1]⟩
abbrev S_ : Shape := ⟨0, ![]⟩
abbrev S32 : Shape := ⟨1, ![32]⟩
abbrev S512 : Shape := ⟨1, ![512]⟩
abbrev S64x32 : Shape := ⟨2, ![64, 32]⟩
abbrev S512x32 : Shape := ⟨2, ![512, 32]⟩
abbrev S1x32 : Shape := ⟨2, ![1, 32]⟩
abbrev S512x131072 : Shape := ⟨2, ![512, 131072]⟩
abbrev S512x1x131072 : Shape := ⟨3, ![512, 1, 131072]⟩

abbrev nBuf : Space → Nat
  | .hbm => 80
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S32x131136, .f32⟩
  | .hbm, ⟨2, _⟩ => ⟨S64x1024, .f32⟩
  | .hbm, ⟨3, _⟩ => ⟨S64, .f32⟩
  | .hbm, ⟨4, _⟩ => ⟨S1x1024, .f32⟩
  | .hbm, ⟨5, _⟩ => ⟨S1, .f32⟩
  | .hbm, ⟨6, _⟩ => ⟨S32x64, .f32⟩
  | .hbm, ⟨7, _⟩ => ⟨S32x64, .f32⟩
  | .hbm, ⟨8, _⟩ => ⟨S32x131072, .f32⟩
  | .hbm, ⟨9, _⟩ => ⟨S1024x64, .f32⟩
  | .hbm, ⟨10, _⟩ => ⟨S512x64, .f32⟩
  | .hbm, ⟨11, _⟩ => ⟨S1x64, .f32⟩
  | .hbm, ⟨12, _⟩ => ⟨S512x64, .f32⟩
  | .hbm, ⟨13, _⟩ => ⟨S512x64, .f32⟩
  | .hbm, ⟨14, _⟩ => ⟨S512x64, .f32⟩
  | .hbm, ⟨15, _⟩ => ⟨S1024x1, .f32⟩
  | .hbm, ⟨16, _⟩ => ⟨S512x1, .f32⟩
  | .hbm, ⟨17, _⟩ => ⟨S1x1, .f32⟩
  | .hbm, ⟨18, _⟩ => ⟨S512x1, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1, .f32⟩
  | .hbm, ⟨25, _⟩ => ⟨S512x1, .i1⟩
  | .hbm, ⟨26, _⟩ => ⟨S512x1, .f32⟩
  | .hbm, ⟨27, _⟩ => ⟨S512x1, .f32⟩
  | .hbm, ⟨28, _⟩ => ⟨S512x1, .f32⟩
  | .hbm, ⟨29, _⟩ => ⟨S512x1, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S512x1, .f32⟩
  | .hbm, ⟨34, _⟩ => ⟨S32x64, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S512x64, .f32⟩
  | .hbm, ⟨42, _⟩ => ⟨S_, .f32⟩
  | .hbm, ⟨43, _⟩ => ⟨S512, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S64x32, .f32⟩
  | .hbm, ⟨49, _⟩ => ⟨S512x32, .f32⟩
  | .hbm, ⟨50, _⟩ => ⟨S512x1, .f32⟩
  | .hbm, ⟨51, _⟩ => ⟨S_, .f32⟩
  | .hbm, ⟨52, _⟩ => ⟨S512x1, .f32⟩
  | .hbm, ⟨53, _⟩ => ⟨S512x1, .f32⟩
  | .hbm, ⟨54, _⟩ => ⟨S1x32, .f32⟩
  | .hbm, ⟨55, _⟩ => ⟨S512x32, .f32⟩
  | .hbm, ⟨56, _⟩ => ⟨S512x32, .f32⟩
  | .hbm, ⟨57, _⟩ => ⟨S512x32, .f32⟩
  | .hbm, ⟨58, _⟩ => ⟨S_, .f32⟩
  | .hbm, ⟨59, _⟩ => ⟨S512x32, .f32⟩
  | .hbm, ⟨60, _⟩ => ⟨S512x32, .f32⟩
  | .hbm, ⟨61, _⟩ => ⟨S512x32, .f32⟩
  | .hbm, ⟨62, _⟩ => ⟨S512x32, .f32⟩
  | .hbm, ⟨63, _⟩ => ⟨S512x32, .f32⟩
  | .hbm, ⟨64, _⟩ => ⟨S_, .f32⟩
  | .hbm, ⟨65, _⟩ => ⟨S512, .f32⟩
  | .hbm, ⟨66, _⟩ => ⟨S_, .f32⟩
  | .hbm, ⟨67, _⟩ => ⟨S512, .f32⟩
  | .hbm, ⟨68, _⟩ => ⟨S512, .f32⟩
  | .hbm, ⟨69, _⟩ => ⟨S512x1, .f32⟩
  | .hbm, ⟨70, _⟩ => ⟨S512x32, .f32⟩
  | .hbm, ⟨71, _⟩ => ⟨S512x32, .f32⟩
  | .hbm, ⟨72, _⟩ => ⟨S512x32, .f32⟩
  | .hbm, ⟨73, _⟩ => ⟨S_, .f32⟩
  | .hbm, ⟨74, _⟩ => ⟨S512, .f32⟩
  | .hbm, ⟨75, _⟩ => ⟨S512x1, .f32⟩
  | .hbm, ⟨76, _⟩ => ⟨S512x32, .f32⟩
  | .hbm, ⟨77, _⟩ => ⟨S512x32, .f32⟩
  | .hbm, ⟨78, _⟩ => ⟨S512x131072, .f32⟩
  | .hbm, ⟨79, _⟩ => ⟨S512x1x131072, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v14 : Ref sig .tc := ⟨.hbm, 33, rfl⟩
abbrev main_call1_v0 : Ref sig .tc := ⟨.hbm, 34, rfl⟩
abbrev main_call1_cst : Ref sig .tc := ⟨.hbm, 35, rfl⟩
abbrev main_call1_v1 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_call2_v0 : Ref sig .tc := ⟨.hbm, 41, rfl⟩
abbrev main_call2_cst : Ref sig .tc := ⟨.hbm, 42, rfl⟩
abbrev main_call2_v1 : Ref sig .tc := ⟨.hbm, 43, rfl⟩
abbrev main_v18 : Ref sig .tc := ⟨.hbm, 44, rfl⟩
abbrev main_cst_0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_1 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_5 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩

abbrev nD : Nat := 1
abbrev τ : Topo := Topo.v7x

variable {F : FTy → Type} [FloatOps F]

class Facts₀ : Prop where
  slices_S32x131136_S32x64_0_0 : S32x131136.Slices ![0, 0] S32x64
  slices_S32x131136_S32x131072_0_64 : S32x131136.Slices ![0, 64] S32x131072
  transposes_S64x1024_S1024x64_1_0 : S64x1024.Transposes [1, 0] S1024x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  transposes_S1x1024_S1024x1_1_0 : S1x1024.Transposes [1, 0] S1024x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  reducesTo_S32x64_S32_d1 : S32x64.ReducesTo [1] S32
  h_S_ : 0 < S_.numel
  bcast_S_S32 : S_.BroadcastsInDim S32 (![] : Fin 0 → Fin S32.rank)
  reducesTo_S512x64_S512_d1 : S512x64.ReducesTo [1] S512
  bcast_S_S512 : S_.BroadcastsInDim S512 (![] : Fin 0 → Fin S512.rank)
  transposes_S32x64_S64x32_1_0 : S32x64.Transposes [1, 0] S64x32
  bcast_S512_S512x1_0 : S512.BroadcastsInDim S512x1 (![0] : Fin 1 → Fin S512x1.rank)
  bcast_S32_S1x32_1 : S32.BroadcastsInDim S1x32 (![1] : Fin 1 → Fin S1x32.rank)
  bcast_S512x1_S512x32_0_1 : S512x1.BroadcastsInDim S512x32 (![0, 1] : Fin 2 → Fin S512x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  reducesTo_S512x32_S512_d1 : S512x32.ReducesTo [1] S512
  bcast_S512x131072_S512x1x131072_0_2 : S512x131072.BroadcastsInDim S512x1x131072 (![0, 2] : Fin 2 → Fin S512x1x131072.rank)
  dot_S512x1024_S1024x64_S512x64_1_0_0_1_n_n_wf : DotDims.WF S512x1024 S1024x64 S512x64 [1] [0] [0] [1] [] []
  dot_S512x1024_S1024x1_S512x1_1_0_0_1_n_n_wf : DotDims.WF S512x1024 S1024x1 S512x1 [1] [0] [0] [1] [] []
  dot_S512x64_S64x32_S512x32_1_0_0_1_n_n_wf : DotDims.WF S512x64 S64x32 S512x32 [1] [0] [0] [1] [] []
  dot_S512x32_S32x131072_S512x131072_1_0_0_1_n_n_wf : DotDims.WF S512x32 S32x131072 S512x131072 [1] [0] [0] [1] [] []

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x131072_S512x131072_1_0_0_1_n_n : DotDims S512x32 S32x131072 S512x131072 where
  lhsContracting := [1]
  rhsContracting := [0]
  lhsNonContracting := [0]
  rhsNonContracting := [1]
  lhsBatch := []
  rhsBatch := []
  wf := dot_S512x32_S32x131072_S512x131072_1_0_0_1_n_n_wf

class Facts : Prop extends Facts₀ where

variable [Facts]
-- ==== Proof.WeightedRead.lean ====
/-
  The function both programs compute after their common front end.

  A bank of 32 program rows is stored in columns 64 … 131135 of a [32, 131136] array (its first 64 columns
  hold the program keys). Given content weights `cw` of shape [512, 32], the read-out is

      read[b, j] = ∑ p < 32, cw[b, p] · bank[p, 64 + j]        (b < 512, j < 131072),

  one finite sum of products over the extended reals per entry. Nothing here needs the entries to be finite:
  the two programs form the same 32 products and add them, and addition of extended reals is commutative and
  associative.
-/
import Idealize.ShloMosaic.PureOps.Ideal
import Idealize.ShloMosaic.Lib.ValueIdx

noncomputable section

open scoped BigOperators

namespace Cert.WeightedRead

open Idealize.ShloMosaic Idealize.ShloMosaic.ValueIdx

/-- Column `j` of the program bank is column `64 + j` of the stored array. -/
def bankCol (j : Fin 131072) : Fin 131136 := ⟨64 + j.val, by have := j.isLt; omega⟩

theorem bankCol_val (j : Fin 131072) : (bankCol j).val = 64 + j.val := rfl

/-- The read-out: entry `(b, j)` is the sum over the 32 programs `p` of `cw[b, p] · bank[p, 64 + j]`. -/
def weightedRead (cw : (⟨2, ![512, 32]⟩ : Shape).Idx → EReal) (bank : (⟨2, ![32, 131136]⟩ : Shape).Idx → EReal) :
    (⟨2, ![512, 131072]⟩ : Shape).Idx → EReal :=
  fun i => ∑ p : Fin 32, cw (ix2 (i 0) p) * bank (ix2 p (bankCol (i 1)))

theorem weightedRead_apply (cw : (⟨2, ![512, 32]⟩ : Shape).Idx → EReal) (bank : (⟨2, ![32, 131136]⟩ : Shape).Idx → EReal)
    (b : Fin 512) (j : Fin 131072) :
    weightedRead cw bank (ix2 b j) = ∑ p : Fin 32, cw (ix2 b p) * bank (ix2 p (bankCol j)) := rfl

end Cert.WeightedRead

end
-- ==== Proof.RefSide.lean ====
/-
  The reference's result as a function of the argument arrays.

  The reference slices the bank out of the stored array (columns 64 onwards), multiplies the content weights
  [512, 32] by it in one matrix product, and inserts a unit axis. Read at an entry, the matrix product is the sum
  over the 32 programs of weight times bank entry, and the sliced bank's entry (p, j) is the stored array's entry
  (p, 64 + j): the product is `weightedRead` of the content weights and the stored array.
-/
import proofs.«107916_j83485574300001_2_alg».proof.Defs
import proofs.«107916_j83485574300001_2_alg».proof.Proof.Gen.ReferenceIdeal.Run
import proofs.«107916_j83485574300001_2_alg».proof.Proof.Gen.ReferenceIdeal.Read
import proofs.«107916_j83485574300001_2_alg».proof.Proof.WeightedRead

noncomputable section

open scoped BigOperators

namespace Cert.RefSide

open Cert.ReferenceIdeal Cert.ReferenceIdeal.Gen Idealize.ShloMosaic Idealize.ShloMosaic.ValueIdx Cert.WeightedRead

/-- The reference's matrix product of the content weights with the sliced bank is `weightedRead` of the content
    weights and the stored array: entry (b, j) sums, over the programs p, weight (b, p) times stored entry (p, 64 + j). -/
theorem product_eq (x0 : (⟨S512x1024, .f32⟩ : BufTy).Contents (Elt Ideal)) (x1 : (⟨S32x131136, .f32⟩ : BufTy).Contents (Elt Ideal))
    (x2 : (⟨S64x1024, .f32⟩ : BufTy).Contents (Elt Ideal)) (x3 : (⟨S64, .f32⟩ : BufTy).Contents (Elt Ideal))
    (x4 : (⟨S1x1024, .f32⟩ : BufTy).Contents (Elt Ideal)) (x5 : (⟨S1, .f32⟩ : BufTy).Contents (Elt Ideal)) :
    Read.val_main_v46 (F := Ideal) x0 x1 x2 x3 x4 x5
      = weightedRead (Read.val_main_v45 (F := Ideal) x0 x1 x2 x3 x4 x5) x1 := by
  funext i
  rw [Read.val_main_v46_apply]
  show _ = ∑ p : Fin 32, (Read.val_main_v45 (F := Ideal) x0 x1 x2 x3 x4 x5) (ix2 (i 0) p) * x1 (ix2 p (bankCol (i 1)))
  refine Finset.sum_congr rfl fun k _ => ?_
  rw [Read.val_main_v2_apply]
  have e1 : Read.lidx_main_v46 i k = ix2 (i 0) k :=
    funext fun a => Fin.ext (by match a with | ⟨0, _⟩ => rfl | ⟨1, _⟩ => rfl)
  have e2 : Read.idx_main_v2 (Read.ridx_main_v46 i k) = ix2 k (bankCol (i 1)) :=
    funext fun a => Fin.ext (by match a with | ⟨0, _⟩ => rfl | ⟨1, _⟩ => rfl)
  rw [e1, e2]
  rfl

/-- The reference's result: the unit axis inserted into `weightedRead` of its content weights and the stored array. -/
theorem result_eq (m : (ℓ : Loc nD τ sig) → Buf (Elt Ideal) ℓ) (c : Dev nD) :
    Cert.ReferenceIdeal.Value.res_main_v47 m c
      = broadcastInDim S512x1x131072 ![0, 2] bcast_S512x131072_S512x1x131072_0_2
          (weightedRead
            (Read.val_main_v45 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5)))
            (m ((c.tc : Thread nD τ).loc main_arg1))) := by
  rw [Read.val_main_v47_eq]
  unfold Read.val_main_v47
  rw [product_eq]

end Cert.RefSide

end
-- ==== Proof.LibLandedSlice.lean ====
/-
  One whole write through a reshaped slice of a buffer, read back through the buffer itself.

  A buffer is viewed through `v`. A rectangle `R` of it, re-laid to another shape `S'` of the same number of
  elements, receives one write of a whole `S'`-shaped value `w` (over any previous contents). Reading the buffer
  through `v` at the place `R` puts its own index `j` then returns `w` at the `S'`-index that has the same
  row-major position as `j`: the write's re-laying undone. This is what a load from one slot of a
  multi-slot scratch buffer reads after a whole-slot transfer has landed in that slot.
-/
import Idealize.ShloMosaic.Lib.Pipeline.Value
import Idealize.ShloMosaic.Lib.Writes

noncomputable section

namespace Idealize.ShloMosaic.View

variable {sig : RefSig} {κ : Kind} {sp : Space} {S : Shape} {e : EltTy} {Val : EltTy → Type}

/-- After one whole write of `w` through the slice `R` of `v` re-laid to `S'`, the view `v` reads, at the place
    of `R`'s index `j`, the value `w` at the `S'`-index matched with `j` — whatever the buffer held before. -/
theorem read_landed_slice (v : View sig κ sp S e) (R : Rect S) {S' : Shape} (hn : S'.numel = R.shape.numel)
    (f0 : v.ty.Contents Val) (w : S'.Idx → Val e) (j : R.shape.Idx) :
    v.read Val (((v.slice R).reshape S' hn).writes Val f0 [⟨Rect.whole S', w⟩]) (R.emb j)
      = w ((Shape.reshapeEquiv hn).symm j) := by
  have h := View.read_writes_cons_emb ((v.slice R).reshape S' hn) f0 (Rect.whole S') w [] ((Shape.reshapeEquiv hn).symm j)
  rw [Rect.emb_whole_apply] at h
  rw [← h, View.read_apply, View.read_apply]
  simp only [View.emb_reshape, View.emb_slice, Function.Embedding.trans_apply, Equiv.coe_toEmbedding, Equiv.apply_symm_apply]

end Idealize.ShloMosaic.View

end
-- ==== Proof.Body.lean ====
/-
  What one grid point leaves in its output block.

  The bank is streamed through a two-slot scratch buffer: the tile for point `t` — columns
  `64 + 4096·t … 64 + 4096·t + 4095` of the stored array, 32 rows — is copied into slot `t mod 2` one point ahead
  (at point 0, by the point itself), and point `t` waits for it before it computes. Whichever of the three
  control cases a point is in (first point; a middle point, which also starts the next copy; the last point),
  its one store writes the whole [512, 4096] output block with the matrix product of the content weights and the
  tile it waited for. The slot is a [1, 32, 4096] piece of the [2, 32, 4096] scratch; the body loads it in that
  shape and re-lays it to [32, 4096], which undoes the re-laying the copy landed through.
-/
import proofs.«107916_j83485574300001_2_alg».proof.Proof.Gen.KernelIdeal.Frame
import proofs.«107916_j83485574300001_2_alg».proof.Proof.LibLandedSlice
import Idealize.ShloMosaic.Lib.Pipeline.Value
import Idealize.ShloMosaic.Lib.WholeRead
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- A [32, 4096] tile re-laid with a leading unit axis has as many elements. -/
theorem casts_back : S32x4096.ShapeCasts S1x32x4096 := by decide

/-- Tile `b` of the bank: the 32 rows of columns `64 + 4096·b` onwards of the stored array `W`, as the copy's
    source reads them. -/
abbrev bankTile (c : Dev nD) (b : Fin 32) (W : HbBuf0 (F := F) c hbM0_0) : Vec F S32x4096 .f32 :=
  (srcB0_0 b).view.read (Elt F) W

/-- A load of slot `s` of the scratch, after tile `b` has landed in that slot whole, reads the tile with a leading
    unit axis (the load's offsets `off` being the slot's, however they are spelt). -/
theorem slot_load (c : Dev nD) (s : Fin 2) (b : Fin 32) (W : HbBuf0 (F := F) c hbM0_0) (f0 : HbBuf0 (F := F) c (rslot0_0 s))
    (off : Fin 3 → Nat) (hoff : off = ![s.val, 0, 0]) (inb : ∀ a, off a + S1x32x4096.size a ≤ S2x32x4096.size a) :
    View.readAt (Elt F) scM0_0.view (Rect.unit (s := S2x32x4096) off S1x32x4096.size inb).toLoadRect
      ((rslot0_0 s).view.writes (Elt F) f0 [⟨Rect.whole S32x4096, ReadAs.same.apply (bankTile c b W)⟩])
    = shapeCast S1x32x4096 (bankTile c b W) casts_back := by
  subst hoff
  funext j
  refine (View.read_landed_slice (Val := Elt F) scM0_0.view (Rect.unit (s := S2x32x4096) ![s.val, 0, 0] S1x32x4096.size inb)
    (S' := S32x4096) squeezes_S1x32x4096_S32x4096.numel_eq f0 (bankTile c b W) j).trans ?_
  rw [Shape.reshapeEquiv_symm]
  rfl

set_option maxHeartbeats 400000 in
/-- Case A: the point's one store leaves, in the output block, the product of the content weights with the bank
    tile that the point waited for. -/
theorem out_A (c : Dev nD) (t : Fin cfg0.N) (a1 : Memref sig .tc .vmem S512x32 .bf16) (h1 : a1.IsWhole)
    (a3 : Memref sig .tc .vmem S512x4096 .f32) (h3 : a3.IsWhole) (hc0 : cond0_0 (grid0.coords t)) (hc1 : cond0_1 (grid0.coords t))
    (x0 : Vec F S512x32 .bf16) (fh0 : HbBuf0 (F := F) c hbM0_0) :
    out0_A_1 c t a1 h1 a3 h3 hc0 hc1 x0 fh0
      = k0_pay1 x0 (shapeCast S1x32x4096 (bankTile c (Ring.bk 32 t.val) fh0) casts_back) := by
  unfold out0_A_1
  rw [View.read_writes_eq_canon _ _ _ (cover0_A_1 c t a1 h1 a3 h3 hc0 hc1 x0 fh0)]
  unfold kernelRun0_A
  dsimp only
  sl_unfold_words
  rw [View.canon_unit_zero hz]
  refine congrArg₂ (k0_pay1 (F := F)) ?_ ?_
  · simp only [View.readAt_eq_ld, h1.read_unread, View.ld_unit_zero (S := S512x32) hz]
  · exact slot_load c (Ring.sl 2 t.val) (Ring.bk 32 t.val) fh0 ((rslot0_0 (Ring.sl 2 t.val)).view.junk)
      (k0_off6 (grid0.coords t)) (coff0_0_10 t) (k0_off6_inb (grid0.coords t))

set_option maxHeartbeats 400000 in
/-- Case B: the point's one store leaves, in the output block, the product of the content weights with the bank
    tile that the point waited for. -/
theorem out_B (c : Dev nD) (t : Fin cfg0.N) (a1 : Memref sig .tc .vmem S512x32 .bf16) (h1 : a1.IsWhole)
    (a3 : Memref sig .tc .vmem S512x4096 .f32) (h3 : a3.IsWhole) (hc0 : ¬cond0_0 (grid0.coords t)) (hc1 : cond0_1 (grid0.coords t))
    (x0 : Vec F S512x32 .bf16) (fh0 : HbBuf0 (F := F) c hbM0_0) :
    out0_B_1 c t a1 h1 a3 h3 hc0 hc1 x0 fh0
      = k0_pay1 x0 (shapeCast S1x32x4096 (bankTile c (Ring.bk 32 t.val) fh0) casts_back) := by
  unfold out0_B_1
  rw [View.read_writes_eq_canon _ _ _ (cover0_B_1 c t a1 h1 a3 h3 hc0 hc1 x0 fh0)]
  unfold kernelRun0_B
  dsimp only
  sl_unfold_words
  rw [View.canon_unit_zero hz]
  refine congrArg₂ (k0_pay1 (F := F)) ?_ ?_
  · simp only [View.readAt_eq_ld, h1.read_unread, View.ld_unit_zero (S := S512x32) hz]
  · exact slot_load c (Ring.sl 2 t.val) (Ring.bk 32 t.val) fh0 ((rslot0_0 (Ring.sl 2 t.val)).view.junk)
      (k0_off6 (grid0.coords t)) (coff0_0_10 t) (k0_off6_inb (grid0.coords t))

set_option maxHeartbeats 400000 in
/-- Case C: the point's one store leaves, in the output block, the product of the content weights with the bank
    tile that the point waited for. -/
theorem out_C (c : Dev nD) (t : Fin cfg0.N) (a1 : Memref sig .tc .vmem S512x32 .bf16) (h1 : a1.IsWhole)
    (a3 : Memref sig .tc .vmem S512x4096 .f32) (h3 : a3.IsWhole) (hc0 : ¬cond0_0 (grid0.coords t)) (hc1 : ¬cond0_1 (grid0.coords t))
    (x0 : Vec F S512x32 .bf16) (fh0 : HbBuf0 (F := F) c hbM0_0) :
    out0_C_1 c t a1 h1 a3 h3 hc0 hc1 x0 fh0
      = k0_pay1 x0 (shapeCast S1x32x4096 (bankTile c (Ring.bk 32 t.val) fh0) casts_back) := by
  unfold out0_C_1
  rw [View.read_writes_eq_canon _ _ _ (cover0_C_1 c t a1 h1 a3 h3 hc0 hc1 x0 fh0)]
  unfold kernelRun0_C
  dsimp only
  sl_unfold_words
  rw [View.canon_unit_zero hz]
  refine congrArg₂ (k0_pay1 (F := F)) ?_ ?_
  · simp only [View.readAt_eq_ld, h1.read_unread, View.ld_unit_zero (S := S512x32) hz]
  · exact slot_load c (Ring.sl 2 t.val) (Ring.bk 32 t.val) fh0 ((rslot0_0 (Ring.sl 2 t.val)).view.junk)
      (k0_off6 (grid0.coords t)) (coff0_0_10 t) (k0_off6_inb (grid0.coords t))

end Cert.KernelIdeal.Body

end
-- ==== Proof.Payload.lean ====
/-
  The body's arithmetic at one entry, over the extended reals.

  The store's value is a matrix product into a zero accumulator: content weights [512, 32] times a bank tile
  [32, 4096] (loaded with a leading unit axis and re-laid, then narrowed to bf16, which over the extended reals
  changes nothing). At entry (r, q) it is the sum over the 32 programs p of weight (r, p) times tile entry (p, q).
-/
import proofs.«107916_j83485574300001_2_alg».proof.Proof.Body
import Idealize.ShloMosaic.Lib.ValueIdx
import Idealize.ShloMosaic.PureOps.Ideal.Laws

set_option maxRecDepth 16384

noncomputable section

open scoped BigOperators

namespace Cert.KernelIdeal.Payload

open Cert.KernelIdeal Cert.KernelIdeal.Gen Idealize.ShloMosaic Idealize.ShloMosaic.ValueIdx

/-- The product's left operand is read at the output's row … -/
theorem lhs_row (i : S512x4096.Idx) (k : dot_S512x32_S32x4096_S512x4096_1_0_0_1_n_n.contr.Idx) :
    (dot_S512x32_S32x4096_S512x4096_1_0_0_1_n_n.lhsIdx i k 0).val = (i 0).val := by
  unfold DotDims.lhsIdx
  rw [dif_neg (show ¬(0 : Fin S512x32.rank) ∈ dot_S512x32_S32x4096_S512x4096_1_0_0_1_n_n.lhsBatch by decide),
    dif_pos (show (0 : Fin S512x32.rank) ∈ dot_S512x32_S32x4096_S512x4096_1_0_0_1_n_n.lhsNonContracting by decide)]
  rfl
/-- … and the contracted column; -/
theorem lhs_col (i : S512x4096.Idx) (k : dot_S512x32_S32x4096_S512x4096_1_0_0_1_n_n.contr.Idx) :
    (dot_S512x32_S32x4096_S512x4096_1_0_0_1_n_n.lhsIdx i k 1).val = (k ⟨0, by decide⟩).val :=
  dot_S512x32_S32x4096_S512x4096_1_0_0_1_n_n.lhsIdx_val_of_single rfl i k
/-- the right operand at the contracted row … -/
theorem rhs_row (i : S512x4096.Idx) (k : dot_S512x32_S32x4096_S512x4096_1_0_0_1_n_n.contr.Idx) :
    (dot_S512x32_S32x4096_S512x4096_1_0_0_1_n_n.rhsIdx i k 0).val = (k ⟨0, by decide⟩).val :=
  dot_S512x32_S32x4096_S512x4096_1_0_0_1_n_n.rhsIdx_val_of_single rfl i k
/-- … and the output's column. -/
theorem rhs_col (i : S512x4096.Idx) (k : dot_S512x32_S32x4096_S512x4096_1_0_0_1_n_n.contr.Idx) :
    (dot_S512x32_S32x4096_S512x4096_1_0_0_1_n_n.rhsIdx i k 1).val = (i 1).val := by
  unfold DotDims.rhsIdx
  rw [dif_neg (show ¬(1 : Fin S32x4096.rank) ∈ dot_S512x32_S32x4096_S512x4096_1_0_0_1_n_n.rhsBatch by decide),
    dif_pos (show (1 : Fin S32x4096.rank) ∈ dot_S512x32_S32x4096_S512x4096_1_0_0_1_n_n.rhsNonContracting by decide)]
  rfl

/-- The stored block at entry (r, q): the sum over the programs p of weight (r, p) times tile entry (p, q). -/
theorem pay_apply (x0 : Vec Ideal S512x32 .bf16) (tile : Vec Ideal S32x4096 .f32) (r : Fin 512) (q : Fin 4096) :
    k0_pay1 (F := Ideal) x0 (shapeCast S1x32x4096 tile Body.casts_back) (ix2 r q)
      = ∑ p : Fin 32, x0 (ix2 r p) * tile (ix2 p q) := by
  unfold k0_pay1
  refine (Ideal.matmul_constant_zero_apply dot_S512x32_S32x4096_S512x4096_1_0_0_1_n_n none _ _ (ix2 r q)).trans ?_
  rw [← Equiv.sum_comp (contrEquiv1 dot_S512x32_S32x4096_S512x4096_1_0_0_1_n_n 32 rfl rfl).symm]
  refine Finset.sum_congr rfl fun k _ => ?_
  have hk := contrEquiv1_symm_val dot_S512x32_S32x4096_S512x4096_1_0_0_1_n_n 32 rfl rfl k
  have el : dot_S512x32_S32x4096_S512x4096_1_0_0_1_n_n.lhsIdx (ix2 r q) ((contrEquiv1 dot_S512x32_S32x4096_S512x4096_1_0_0_1_n_n 32 rfl rfl).symm k) = ix2 r k :=
    funext fun a => Fin.ext (by
      match a with
      | ⟨0, _⟩ => exact lhs_row _ _
      | ⟨1, _⟩ => exact (lhs_col _ _).trans hk)
  have er : dot_S512x32_S32x4096_S512x4096_1_0_0_1_n_n.rhsIdx (ix2 r q) ((contrEquiv1 dot_S512x32_S32x4096_S512x4096_1_0_0_1_n_n 32 rfl rfl).symm k) = ix2 k q :=
    funext fun a => Fin.ext (by
      match a with
      | ⟨0, _⟩ => exact (rhs_row _ _).trans hk
      | ⟨1, _⟩ => exact rhs_col _ _)
  rw [el, er]
  exact congrArg₂ (· * ·) (congrFun (shapeCast_self x0 shapeCasts_S512x32_S512x32) (ix2 r k))
    (congrFun (shapeCast_shapeCast tile Body.casts_back shapeCasts_S1x32x4096_S32x4096) (ix2 k q))

end Cert.KernelIdeal.Payload

end
-- ==== Proof.Blocks.lean ====
/-
  From the blocks to the whole result array, over the extended reals.

  Point `t` of the 32-point grid writes back block `t` of the [512, 131072] result: all 512 rows, columns
  `4096·t … 4096·t + 4095`. By the body's arithmetic that block holds, at (r, q), the sum over the programs p of
  the content weight (r, p) — the weights' window is the whole [512, 32] array at every point — times the bank tile
  entry (p, q), which is the stored array's entry (p, 64 + 4096·t + q). That is `weightedRead` of the weights and
  the stored array at row r and column 4096·t + q: every block is the restriction of one whole-array function, the
  blocks tile the columns, and so the array ends holding that function.
-/
import proofs.«107916_j83485574300001_2_alg».proof.Proof.Payload
import proofs.«107916_j83485574300001_2_alg».proof.Proof.WeightedRead
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.WeightedRead
open Idealize.ShloMosaic.Pipeline (Dat)

variable (m : (ℓ : Loc nD τ sig) → Buf (Elt Ideal) ℓ)

/-- The two windows' block indices over the grid: the weights' window never moves; the result's window is at block
    row 0 and block column `t`. -/
theorem index_facts : ∀ t : Fin cfg0.N, win0_0.index t (0 : Fin 2) = 0 ∧ win0_0.index t (1 : Fin 2) = 0
    ∧ win0_1.index t (0 : Fin 2) = 0 ∧ win0_1.index t (1 : Fin 2) = t.val :=
  (by decide +kernel : ∀ t : Fin grid0.N, _)

/-- Column `4096·t + q` of the result. -/
def outCol (t : Fin cfg0.N) (q : Fin 4096) : Fin 131072 :=
  ⟨4096 * t.val + q.val, by have := lt_of_lt_of_eq t.isLt (show cfg0.N = 32 from N_0); have := q.isLt; omega⟩

/-- The weights' block at any point is the whole weights array. -/
theorem weights_block (c : Dev nD) (t : Fin cfg0.N) (r : Fin 512) (p : Fin 32) :
    iblk m c 0 t (ix2 r p) = V m c main_v45 (ix2 r p) := by
  obtain ⟨e0, e1, -, -⟩ := index_facts t
  show V m c main_v45 (((cfg0.win 0).blk t).view.emb (ix2 r p)) = V m c main_v45 (ix2 r p)
  refine congrArg (V m c main_v45) (funext fun a => Fin.ext ?_)
  match a with
  | ⟨0, _⟩ => show win0_0.index t (0 : Fin 2) * 512 + 1 * r.val = r.val; omega
  | ⟨1, _⟩ => show win0_0.index t (1 : Fin 2) * 32 + 1 * p.val = p.val; omega

/-- Tile `t` of the bank at (p, q) is the stored array at (p, 64 + 4096·t + q). -/
theorem tile_apply (c : Dev nD) (t : Fin cfg0.N) (W : HbBuf0 (F := Ideal) c hbM0_0) (p : Fin 32) (q : Fin 4096) :
    Body.bankTile c (Ring.bk 32 t.val) W (ix2 p q) = W (ix2 p (bankCol (outCol t q))) := by
  have hN : t.val < 32 := lt_of_lt_of_eq t.isLt (show cfg0.N = 32 from N_0)
  have hb : (Ring.bk 32 t.val).val = t.val := Ring.bk_val hN
  show W ((srcB0_0 (Ring.bk 32 t.val)).view.emb (ix2 p q)) = W (ix2 p (bankCol (outCol t q)))
  refine congrArg W (funext fun a => Fin.ext ?_)
  match a with
  | ⟨0, _⟩ => show 0 + 1 * p.val = p.val; omega
  | ⟨1, _⟩ => show 4096 * (Ring.bk 32 t.val).val + 64 + 1 * q.val = 64 + (4096 * t.val + q.val); rw [hb]; omega

/-- What the output's staging buffer holds after point `t`: the product of the weights' block with tile `t`. -/
theorem point_block (c : Dev nD) (t : Fin cfg0.N) :
    outsAt0 m c t.val t.isLt
      = k0_pay1 (F := Ideal) (iblk m c 0 t)
          (shapeCast S1x32x4096 (Body.bankTile c (Ring.bk 32 t.val) (V m c main_arg1)) Body.casts_back) := by
  have hN : t.val < 32 := lt_of_lt_of_eq t.isLt (show cfg0.N = 32 from N_0)
  by_cases h0 : t.val % 32 = 0
  · by_cases h1 : t.val < 31
    · rw [outsAt0_A m c t h0 h1]
      exact Body.out_A (F := Ideal) c t (ms0_0 t) (hs0_0 t) (ms0_1 t) (hs0_1 t) ((hcond0_0 t).mpr h0) ((hcond0_1 t).mpr h1)
        (iblk m c 0 t) (V m c main_arg1)
    · exfalso; omega
  · by_cases h1 : t.val < 31
    · rw [outsAt0_B m c t h0 h1]
      exact Body.out_B (F := Ideal) c t (ms0_0 t) (hs0_0 t) (ms0_1 t) (hs0_1 t) (fun h => h0 ((hcond0_0 t).mp h)) ((hcond0_1 t).mpr h1)
        (iblk m c 0 t) (V m c main_arg1)
    · rw [outsAt0_C m c t h0 h1]
      exact Body.out_C (F := Ideal) c t (ms0_0 t) (hs0_0 t) (ms0_1 t) (hs0_1 t) (fun h => h0 ((hcond0_0 t).mp h)) (fun h => h1 ((hcond0_1 t).mp h))
        (iblk m c 0 t) (V m c main_arg1)

/-- At (r, q) it is the read-out at row r and column 4096·t + q. -/
theorem point_entry (c : Dev nD) (t : Fin cfg0.N) (r : Fin 512) (q : Fin 4096) :
    outsAt0 m c t.val t.isLt (ix2 r q)
      = weightedRead (V m c main_v45) (V m c main_arg1) (ix2 r (outCol t q)) := by
  rw [point_block m c t, weightedRead_apply]
  refine (Payload.pay_apply (iblk m c 0 t) (Body.bankTile c (Ring.bk 32 t.val) (V m c main_arg1)) r q).trans ?_
  refine Finset.sum_congr rfl fun p _ => ?_
  rw [weights_block m c t r p, tile_apply c t (V m c main_arg1) p q]

/-- What point `t` writes back is block `t` of the read-out. -/
theorem flushed_eq (c : Dev nD) (t : Fin cfg0.N) :
    (dats m 0 c).flushed 1 t
      = ((cfg0.win 1).blk t).view.read (Elt Ideal) (weightedRead (V m c main_v45) (V m c main_arg1)) := by
  show (cfg0.win 1).cut (grid0.coords t) ((dats m 0 c).after 1 t) = _
  rw [after0_1]
  obtain ⟨-, -, e2, e3⟩ := index_facts t
  funext j
  obtain ⟨r, q, rfl⟩ : ∃ (r : Fin 512) (q : Fin 4096), j = ix2 r q := ⟨j 0, j 1, eq_ix2 j⟩
  show outsAt0 m c t.val t.isLt (ix2 r q)
    = weightedRead (V m c main_v45) (V m c main_arg1) (((cfg0.win 1).blk t).view.emb (ix2 r q))
  rw [point_entry m c t r q]
  refine congrArg (weightedRead (V m c main_v45) (V m c main_arg1)) (funext fun a => Fin.ext ?_)
  match a with
  | ⟨0, _⟩ => show r.val = win0_1.index t (0 : Fin 2) * 512 + 1 * r.val; omega
  | ⟨1, _⟩ => show 4096 * t.val + q.val = win0_1.index t (1 : Fin 2) * 4096 + 1 * q.val; omega

/-- An index of the result is in point `t`'s block iff each coordinate is in the block's range on its axis. -/
theorem mem_block (t : Fin cfg0.N) (i : S512x131072.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v46).slice (win0_1.rect t)).set ↔ _
  rw [View.set_slice_whole, Rect.mem_set_unit]
  exact Iff.rfl

/-- Every entry of the result is in the block of the point its column falls in. -/
theorem covered (i : S512x131072.Idx) :
    ∃ t : Fin cfg0.N, (cfg0.win 1).flush t = true ∧ i ∈ ((cfg0.win 1).blk t).view.set := by
  have hi0 : (i 0).val < 512 := (i 0).isLt
  have hi1 : (i 1).val < 131072 := (i 1).isLt
  have hN : cfg0.N = 32 := N_0
  have ht : (i 1).val / 4096 < cfg0.N := by rw [hN]; omega
  obtain ⟨-, -, e2, e3⟩ := index_facts ⟨(i 1).val / 4096, ht⟩
  refine ⟨⟨(i 1).val / 4096, ht⟩, flush0_1 _, ?_⟩
  rw [mem_block]
  intro a
  match a with
  | ⟨0, _⟩ =>
    show win0_1.index ⟨(i 1).val / 4096, ht⟩ (0 : Fin 2) * 512 ≤ (i 0).val
      ∧ (i 0).val < win0_1.index ⟨(i 1).val / 4096, ht⟩ (0 : Fin 2) * 512 + 512
    rw [e2]; omega
  | ⟨1, _⟩ =>
    show win0_1.index ⟨(i 1).val / 4096, ht⟩ (1 : Fin 2) * 4096 ≤ (i 1).val
      ∧ (i 1).val < win0_1.index ⟨(i 1).val / 4096, ht⟩ (1 : Fin 2) * 4096 + 4096
    rw [e3]; dsimp only; omega

/-- The result array after the run is the read-out of the staged weights and the stored array. -/
theorem final (c : Dev nD) :
    (dats m 0 c).arrAt 1 cfg0.N = weightedRead (V m c main_v45) (V m c main_arg1) :=
  (dats m 0 c).arrAt_eq_of_cover 1 (weightedRead (V m c main_v45) (V m c main_arg1)) (fun t _ => flushed_eq m c t) covered

end Cert.KernelIdeal.Blocks

end
-- ==== Proof.KernelHead.lean ====
/-
  The content weights the kernel's region is launched with.

  Before the region the kernel program computes the content weights on the host by the same chain of operations
  as the reference — program keys, the two projections, the norms, the scaled cosine similarity, the row softmax —
  literal by literal, and then narrows them to bf16, which over the extended reals is the identity. So the array
  the region's first window stages is the reference's content-weights term of the same arguments.
-/
import proofs.«107916_j83485574300001_2_alg».proof.Proof.Gen.KernelIdeal.Frame
import proofs.«107916_j83485574300001_2_alg».proof.Proof.Gen.ReferenceIdeal.Read
import Idealize.ShloMosaic.Lib.StableHlo.Run

set_option maxRecDepth 16384

noncomputable section

namespace Cert.KernelIdeal.Head

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 30000000 in
/-- The staged content weights are the reference's content-weights term of the argument arrays, narrowed to bf16. -/
theorem weights_eq (c : Dev nD) :
    @Eq (FVec Ideal S512x32 .bf16) (V m c main_v45)
      (truncf (F := Ideal) (s := S512x32) .bf16 (Cert.ReferenceIdeal.Read.val_main_v45 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) bitsLt_bf16_f32) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

end Cert.KernelIdeal.Head

end
-- ==== Proof.KernelRun.lean ====
/-
  The kernel program's run, read: its result is the read-out with a unit axis inserted.

  After the region the program inserts a unit axis into the [512, 131072] array the region wrote, giving the
  [512, 1, 131072] result. The region's array is the read-out of the staged content weights and the stored array
  (every grid point's block is a block of it, and the blocks cover it); the staged weights are the reference's
  content-weights term of the arguments, and no host operation writes the stored array.
-/
import proofs.«107916_j83485574300001_2_alg».proof.Proof.Blocks
import proofs.«107916_j83485574300001_2_alg».proof.Proof.KernelHead
import Idealize.ShloMosaic.Lib.StableHlo.Run

set_option maxRecDepth 16384

noncomputable section

namespace Cert.KernelIdeal.Run

open Cert.KernelIdeal Cert.KernelIdeal.Gen Idealize.ShloMosaic Idealize.ShloMosaic.TcCoe Idealize.SL.Sem
open Cert.WeightedRead

variable (m : (ℓ : Loc nD τ sig) → Buf (Elt Ideal) ℓ) (ρ : Dev nD → PrngReg)

/-- The line after the region, applied to what the region leaves: the unit axis inserted into the read-out of
    the staged weights and the stored array. -/
theorem tail_eq (c : Dev nD) :
    Pipeline.afterTail₀ cfgs (dats m) 0 (V0 m) [hostOps1] c main_v47
      = broadcastInDim S512x1x131072 ![0, 2] bcast_S512x131072_S512x1x131072_0_2
          (weightedRead (V m c main_v45) (V m c main_arg1)) := by
  unfold Pipeline.afterTail₀
  show StableHlo.after hostOps1 _ (Proc.devRef .tc main_v47) = _
  after_results
  exact congrArg (broadcastInDim S512x1x131072 ![0, 2] bcast_S512x131072_S512x1x131072_0_2)
    ((Pipeline.withArrays_arr spec0 launch0.win.arr_inj c (V0 m c) (fun w => (dats m 0 c).arrAt w cfg0.N) 1).trans
      (Blocks.final m c))

/-- The kernel program's result as a function of its argument arrays: the unit axis inserted into the read-out of
    the content weights (the common front end's term of the arguments) and the stored array. -/
def result (c : Dev nD) : Buf (Elt Ideal) ((c.tc : Thread nD τ).loc main_v47) :=
  broadcastInDim S512x1x131072 ![0, 2] bcast_S512x131072_S512x1x131072_0_2
    (weightedRead
      (Cert.ReferenceIdeal.Read.val_main_v45 (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)))
      (m ((c.tc : Thread nD τ).loc main_arg1)))

theorem tail_result (c : Dev nD) :
    Pipeline.afterTail₀ cfgs (dats m) 0 (V0 m) [hostOps1] c main_v47 = result m c := by
  rw [tail_eq m c, Head.weights_eq m c, V_main_arg1 m c]
  rfl

/-- Every weakly fair execution of the kernel program ends with the result at `result` and the arguments unchanged. -/
theorem run : θ_run defs (onTc (τ := τ) (main (F := Ideal))) ⟨m, fun _ => 0, ρ⟩ (fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v47 (Pipeline.mem_restRefs_of main_v47 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.lean ====
/-
  A memory-program read-out: the kernel against its jnp reference, over the extended reals.

  Both programs compute content weights `cw` [512, 32] from the arguments by the same chain of host operations
  (program keys `tanh` of the first 64 columns of the stored array, two projections of `x`, norms, a scaled cosine
  similarity, a row softmax sharpened by a softplus strength), literal by literal. The reference then slices the
  program bank out of the stored array (columns 64 onwards) and forms one matrix product; the kernel streams the
  bank through a two-slot scratch buffer, 4096 columns per grid point, one copy ahead, and forms the product tile
  by tile, narrowing both operands to bf16 on the way — a change of format, which over the extended reals is the
  identity. Entry (b, j) of either product is

      ∑ p < 32, cw[b, p] · stored[p, 64 + j],

  the same 32 products added up (no law beyond the sum itself is needed, so finiteness of the inputs is never
  used), and both programs insert the same unit axis. The idealized kernel is the kernel's own text read over the
  extended reals (no operation was rewritten), so `preserves` is trivial; the kernel programs' frames are the
  generated ones; the reference's frame is its run with the result dropped.
-/
import proofs.«107916_j83485574300001_2_alg».proof.Defs
import proofs.«107916_j83485574300001_2_alg».proof.Proof.Gen.Kernel
import proofs.«107916_j83485574300001_2_alg».proof.Proof.Gen.Kernel.Skeleton
import proofs.«107916_j83485574300001_2_alg».proof.Proof.Gen.Kernel.Launch
import proofs.«107916_j83485574300001_2_alg».proof.Proof.Gen.Kernel.Points
import proofs.«107916_j83485574300001_2_alg».proof.Proof.Gen.Kernel.Frame
import proofs.«107916_j83485574300001_2_alg».proof.Proof.Gen.KernelIdeal
import proofs.«107916_j83485574300001_2_alg».proof.Proof.Gen.KernelIdeal.Skeleton
import proofs.«107916_j83485574300001_2_alg».proof.Proof.Gen.KernelIdeal.Launch
import proofs.«107916_j83485574300001_2_alg».proof.Proof.Gen.KernelIdeal.Points
import proofs.«107916_j83485574300001_2_alg».proof.Proof.Gen.KernelIdeal.Frame
import proofs.«107916_j83485574300001_2_alg».proof.Proof.Gen.ReferenceIdeal
import proofs.«107916_j83485574300001_2_alg».proof.Proof.Gen.Pre_finite_inputs
import proofs.«107916_j83485574300001_2_alg».proof.Proof.RefSide
import proofs.«107916_j83485574300001_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- Over the extended reals both programs end with the unit axis inserted into the read-out of the common content
    weights and the stored array, of arguments that agree. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.RefSide.result_eq, (hagree c).1, (hagree c).2.1, (hagree c).2.2.1, (hagree c).2.2.2.1,
    (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
